-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x112x112x128 : Shape := ⟨4, ![32, 112, 112, 128]⟩
abbrev S128x2048 : Shape := ⟨2, ![128, 2048]⟩
abbrev S2048 : Shape := ⟨1, ![2048]⟩
abbrev S2048x128 : Shape := ⟨2, ![2048, 128]⟩
abbrev S128 : Shape := ⟨1, ![128]⟩
abbrev S_ : Shape := ⟨0, ![]⟩

class Facts : Prop where
  bcast_S_S32x112x112x128 : S_.BroadcastsInDim S32x112x112x128 (![] : Fin 0 → Fin S32x112x112x128.rank)
  reducesTo_S32x112x112x128_S_d0_1_2_3 : S32x112x112x128.ReducesTo [0, 1, 2, 3] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x112x112x128 .f32) (main_arg1 : FVec F S128x2048 .f32) (main_arg2 : FVec F S2048 .f32) (main_arg3 : FVec F S2048x128 .f32) (main_arg4 : FVec F S128 .f32) : IVec S_ 1 :=
  let main_v0 : FVec F S32x112x112x128 .f32 := Host.absf main_arg0
  let main_cst : FVec F S_ .f32 := constant S_ .f32 0x7F800000#32
  let main_v1 : FVec F S32x112x112x128 .f32 := broadcastInDim S32x112x112x128 ![] bcast_S_S32x112x112x128 main_cst
  let main_v2 : IVec S32x112x112x128 1 := cmpf .olt main_v0 main_v1
  let main_c : IVec S_ 1 := constantI S_ 1 1#1
  let main_v3 : IVec S_ 1 := (fun x v => Host.reduce IntOp.andi x v reducesTo_S32x112x112x128_S_d0_1_2_3 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_v13 main_v16
-- ==== Kernel.lean ====
abbrev S32x112x112x128 : Shape := ⟨4, ![32, 112, 112, 128]⟩
abbrev S128x2048 : Shape := ⟨2, ![128, 2048]⟩
abbrev S2048 : Shape := ⟨1, ![2048]⟩
abbrev S2048x128 : Shape := ⟨2, ![2048, 128]⟩
abbrev S128 : Shape := ⟨1, ![128]⟩
abbrev S32x12544x128 : Shape := ⟨3, ![32, 12544, 128]⟩
abbrev S32x1x128 : Shape := ⟨3, ![32, 1, 128]⟩
abbrev S1x12544x128 : Shape := ⟨3, ![1, 12544, 128]⟩
abbrev S1x1x128 : Shape := ⟨3, ![1, 1, 128]⟩
abbrev S12544x128 : Shape := ⟨2, ![12544, 128]⟩
abbrev S1x128 : Shape := ⟨2, ![1, 128]⟩
abbrev S32x128 : Shape := ⟨2, ![32, 128]⟩
abbrev S32x2048 : Shape := ⟨2, ![32, 2048]⟩
abbrev S1x2048 : Shape := ⟨2, ![1, 2048]⟩
abbrev S_ : Shape := ⟨0, ![]⟩

abbrev nBuf : Space → Nat
  | .hbm => 44
  | .vmem => 10
  | .smem => 0
  | _ => 0

abbrev bufTy : (tb : Table) → Fin (tcTables nBuf tb) → BufTy
  | .hbm, ⟨0, _⟩ => ⟨S32x112x112x128, .f32⟩
  | .hbm, ⟨1, _⟩ => ⟨S128x2048, .f32⟩
  | .hbm, ⟨2, _⟩ => ⟨S2048, .f32⟩
  | .hbm, ⟨3, _⟩ => ⟨S2048x128, .f32⟩
  | .hbm, ⟨4, _⟩ => ⟨S128, .f32⟩
  | .hbm, ⟨5, _⟩ => ⟨S32x12544x128, .f32⟩
  | .hbm, ⟨6, _⟩ => ⟨S32x1x128, .f32⟩
  | .hbm, ⟨7, _⟩ => ⟨S32x128, .f32⟩
  | .hbm, ⟨8, _⟩ => ⟨S32x2048, .f32⟩
  | .hbm, ⟨9, _⟩ => ⟨S1x2048, .f32⟩
  | .hbm, ⟨10, _⟩ => ⟨S32x2048, .f32⟩
  | .hbm, ⟨11, _⟩ => ⟨S32x2048, .f32⟩
  | .hbm, ⟨12, _⟩ => ⟨S32x2048, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S_, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S_, .f32⟩
  | .hbm, ⟨23, _⟩ => ⟨S32x2048, .f32⟩
  | .hbm, ⟨24, _⟩ => ⟨S32x2048, .f32⟩
  | .hbm, ⟨25, _⟩ => ⟨S_, .f32⟩
  | .hbm, ⟨26, _⟩ => ⟨S32x2048, .f32⟩
  | .hbm, ⟨27, _⟩ => ⟨S32x2048, .f32⟩
  | .hbm, ⟨28, _⟩ => ⟨S32x2048, .f32⟩
  | .hbm, ⟨29, _⟩ => ⟨S32x128, .f32⟩
  | .hbm, ⟨30, _⟩ => ⟨S1x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S32x128, .f32⟩
  | .hbm, ⟨35, _⟩ => ⟨S_, .f32⟩
  | .hbm, ⟨36, _⟩ => ⟨S32x128, .f32⟩
  | .hbm, ⟨37, _⟩ => ⟨S32x128, .f32⟩
  | .hbm, ⟨38, _⟩ => ⟨S_, .f32⟩
  | .hbm, ⟨39, _⟩ => ⟨S32x128, .f32⟩
  | .hbm, ⟨40, _⟩ => ⟨S32x128, .f32⟩
  | .hbm, ⟨41, _⟩ => ⟨S32x1x128, .f32⟩
  | .hbm, ⟨42, _⟩ => ⟨S32x12544x128, .f32⟩
  | .hbm, ⟨43, _⟩ => ⟨S32x112x112x128, .f32⟩
  | .local _ .vmem, ⟨0, _⟩ => ⟨S1x12544x128, .f32⟩
  | .local _ .vmem, ⟨1, _⟩ => ⟨S1x12544x128, .f32⟩
  | .local _ .vmem, ⟨2, _⟩ => ⟨S1x1x128, .f32⟩
  | .local _ .vmem, ⟨3, _⟩ => ⟨S1x1x128, .f32⟩
  | .local _ .vmem, ⟨4, _⟩ => ⟨S1x12544x128, .f32⟩
  | .local _ .vmem, ⟨5, _⟩ => ⟨S1x12544x128, .f32⟩
  | .local _ .vmem, ⟨6, _⟩ => ⟨S1x1x128, .f32⟩
  | .local _ .vmem, ⟨7, _⟩ => ⟨S1x1x128, .f32⟩
  | .local _ .vmem, ⟨8, _⟩ => ⟨S1x12544x128, .f32⟩
  | .local _ .vmem, ⟨9, _⟩ => ⟨S1x12544x128, .f32⟩
  | _, _ => ⟨S32x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x12544x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12544x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x112x112x128_S32x12544x128 : S32x112x112x128.ShapeCasts S32x12544x128
  inb_S1x12544x128_S1x12544x128_0_0_0 : ∀ a, (![0, 0, 0] : Fin 3 → Nat) a + S1x12544x128.size a ≤ S1x12544x128.size a
  h_S1x12544x128 : 0 < S1x12544x128.numel
  shapeCasts_S1x12544x128_S12544x128 : S1x12544x128.ShapeCasts S12544x128
  reduces_S12544x128_S128 : S12544x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S32x1x128_S32x128 : S32x1x128.ShapeCasts S32x128
  bcast_S2048_S1x2048_1 : S2048.BroadcastsInDim S1x2048 (![1] : Fin 1 → Fin S1x2048.rank)
  bcast_S1x2048_S32x2048_0_1 : S1x2048.BroadcastsInDim S32x2048 (![0, 1] : Fin 2 → Fin S32x2048.rank)
  bcast_S_S32x2048 : S_.BroadcastsInDim S32x2048 (![] : Fin 0 → Fin S32x2048.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  shapeCasts_S32x128_S32x1x128 : S32x128.ShapeCasts S32x1x128
  broadcasts_S1x128_S12544x128 : S1x128.Broadcasts S12544x128
  shapeCasts_S12544x128_S1x12544x128 : S12544x128.ShapeCasts S1x12544x128
  shapeCasts_S32x12544x128_S32x112x112x128 : S32x12544x128.ShapeCasts S32x112x112x128
  dot_S32x128_S128x2048_S32x2048_1_0_0_1_n_n_wf : DotDims.WF S32x128 S128x2048 S32x2048 [1] [0] [0] [1] [] []
  dot_S32x2048_S2048x128_S32x128_1_0_0_1_n_n_wf : DotDims.WF S32x2048 S2048x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12544x128.size a ≤ S32x12544x128.size a
  hwx0_0 : ∀ i : grid0.Coords, EltTy.bits .f32 = 32 ∨ (Rect.block (s := S32x12544x128) S1x12544x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S32x1x128.size a
  hwx0_1 : ∀ i : grid0.Coords, EltTy.bits .f32 = 32 ∨ (Rect.block (s := S32x1x128) S1x1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12544x128.size a ≤ S32x12544x128.size a
  hwx1_0 : ∀ i : grid1.Coords, EltTy.bits .f32 = 32 ∨ (Rect.block (s := S32x12544x128) S1x12544x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S32x1x128.size a
  hwx1_1 : ∀ i : grid1.Coords, EltTy.bits .f32 = 32 ∨ (Rect.block (s := S32x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12544x128.size a ≤ S32x12544x128.size a
  hwx1_2 : ∀ i : grid1.Coords, EltTy.bits .f32 = 32 ∨ (Rect.block (s := S32x12544x128) S1x12544x128.size (cc1_transform_2 i) (hinb1_2 i)).WholeWords (EltTy.packing .f32)

variable [Facts₀]

def dot_S32x128_S128x2048_S32x2048_1_0_0_1_n_n : DotDims S32x128 S128x2048 S32x2048 where
  lhsContracting := [1]
  rhsContracting := [0]
  lhsNonContracting := [0]
  rhsNonContracting := [1]
  lhsBatch := []
  rhsBatch := []
  wf := dot_S32x128_S128x2048_S32x2048_1_0_0_1_n_n_wf
def dot_S32x2048_S2048x128_S32x128_1_0_0_1_n_n : DotDims S32x2048 S2048x128 S32x128 where
  lhsContracting := [1]
  rhsContracting := [0]
  lhsNonContracting := [0]
  rhsNonContracting := [1]
  lhsBatch := []
  rhsBatch := []
  wf := dot_S32x2048_S2048x128_S32x128_1_0_0_1_n_n_wf

abbrev win0_0 : Pipeline.Window sig grid0 :=
  Pipeline.Window.ofSpec (Memref.whole main_v0) S1x12544x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x12544x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x12544x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x112x112x128 : Shape := ⟨4, ![32, 112, 112, 128]⟩
abbrev S128x2048 : Shape := ⟨2, ![128, 2048]⟩
abbrev S2048 : Shape := ⟨1, ![2048]⟩
abbrev S2048x128 : Shape := ⟨2, ![2048, 128]⟩
abbrev S128 : Shape := ⟨1, ![128]⟩
abbrev S_ : Shape := ⟨0, ![]⟩
abbrev S32x128 : Shape := ⟨2, ![32, 128]⟩
abbrev S32x2048 : Shape := ⟨2, ![32, 2048]⟩
abbrev S1x2048 : Shape := ⟨2, ![1, 2048]⟩
abbrev S1x128 : Shape := ⟨2, ![1, 128]⟩
abbrev S32x1x1x128 : Shape := ⟨4, ![32, 1, 1, 128]⟩

abbrev nBuf : Space → Nat
  | .hbm => 46
  | .vmem => 0
  | .smem => 0
  | _ => 0

abbrev bufTy : (tb : Table) → Fin (tcTables nBuf tb) → BufTy
  | .hbm, ⟨0, _⟩ => ⟨S32x112x112x128, .f32⟩
  | .hbm, ⟨1, _⟩ => ⟨S128x2048, .f32⟩
  | .hbm, ⟨2, _⟩ => ⟨S2048, .f32⟩
  | .hbm, ⟨3, _⟩ => ⟨S2048x128, .f32⟩
  | .hbm, ⟨4, _⟩ => ⟨S128, .f32⟩
  | .hbm, ⟨5, _⟩ => ⟨S_, .f32⟩
  | .hbm, ⟨6, _⟩ => ⟨S32x128, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S32x2048, .f32⟩
  | .hbm, ⟨11, _⟩ => ⟨S1x2048, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S_, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32x2048, .f32⟩
  | .hbm, ⟨26, _⟩ => ⟨S32x2048, .f32⟩
  | .hbm, ⟨27, _⟩ => ⟨S_, .f32⟩
  | .hbm, ⟨28, _⟩ => ⟨S32x2048, .f32⟩
  | .hbm, ⟨29, _⟩ => ⟨S32x2048, .f32⟩
  | .hbm, ⟨30, _⟩ => ⟨S32x2048, .f32⟩
  | .hbm, ⟨31, _⟩ => ⟨S32x128, .f32⟩
  | .hbm, ⟨32, _⟩ => ⟨S1x128, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S_, .f32⟩
  | .hbm, ⟨38, _⟩ => ⟨S32x128, .f32⟩
  | .hbm, ⟨39, _⟩ => ⟨S32x128, .f32⟩
  | .hbm, ⟨40, _⟩ => ⟨S_, .f32⟩
  | .hbm, ⟨41, _⟩ => ⟨S32x128, .f32⟩
  | .hbm, ⟨42, _⟩ => ⟨S32x128, .f32⟩
  | .hbm, ⟨43, _⟩ => ⟨S32x1x1x128, .f32⟩
  | .hbm, ⟨44, _⟩ => ⟨S32x112x112x128, .f32⟩
  | .hbm, ⟨45, _⟩ => ⟨S32x112x112x128, .f32⟩
  | _, _ => ⟨S32x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  reducesTo_S32x112x112x128_S32x128_d1_2 : S32x112x112x128.ReducesTo [1, 2] S32x128
  h_S_ : 0 < S_.numel
  bcast_S_S32x128 : S_.BroadcastsInDim S32x128 (![] : Fin 0 → Fin S32x128.rank)
  bcast_S2048_S1x2048_1 : S2048.BroadcastsInDim S1x2048 (![1] : Fin 1 → Fin S1x2048.rank)
  bcast_S1x2048_S32x2048_0_1 : S1x2048.BroadcastsInDim S32x2048 (![0, 1] : Fin 2 → Fin S32x2048.rank)
  bcast_S_S32x2048 : S_.BroadcastsInDim S32x2048 (![] : Fin 0 → Fin S32x2048.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S32x128_S32x1x1x128_0_3 : S32x128.BroadcastsInDim S32x1x1x128 (![0, 3] : Fin 2 → Fin S32x1x1x128.rank)
  bcast_S32x1x1x128_S32x112x112x128_0_1_2_3 : S32x1x1x128.BroadcastsInDim S32x112x112x128 (![0, 1, 2, 3] : Fin 4 → Fin S32x112x112x128.rank)
  dot_S32x128_S128x2048_S32x2048_1_0_0_1_n_n_wf : DotDims.WF S32x128 S128x2048 S32x2048 [1] [0] [0] [1] [] []
  dot_S32x2048_S2048x128_S32x128_1_0_0_1_n_n_wf : DotDims.WF S32x2048 S2048x128 S32x128 [1] [0] [0] [1] [] []

variable [Facts₀]

def dot_S32x128_S128x2048_S32x2048_1_0_0_1_n_n : DotDims S32x128 S128x2048 S32x2048 where
  lhsContracting := [1]
  rhsContracting := [0]
  lhsNonContracting := [0]
  rhsNonContracting := [1]
  lhsBatch := []
  rhsBatch := []
  wf := dot_S32x128_S128x2048_S32x2048_1_0_0_1_n_n_wf
def dot_S32x2048_S2048x128_S32x128_1_0_0_1_n_n : DotDims S32x2048 S2048x128 S32x128 where
  lhsContracting := [1]
  rhsContracting := [0]
  lhsNonContracting := [0]
  rhsNonContracting := [1]
  lhsBatch := []
  rhsBatch := []
  wf := dot_S32x2048_S2048x128_S32x128_1_0_0_1_n_n_wf

class Facts : Prop extends Facts₀ where

variable [Facts]
-- ==== Proof.KFrame.lean ====
/-
  The idealized kernel's run with its RESULT named. Every weakly fair execution of the program terminates without a
  fault; the five argument arrays end as launched, and the result array ends holding what the fold of the program's
  segments leaves in it: the contents of the result buffer at the last segment boundary. That boundary's contents are
  a function of the launch memory only, which the sibling modules read back region by region.
-/
import proofs.«160681_j72808285601940_2_alg».proof.Proof.Gen.KernelIdeal.Frame

set_option maxRecDepth 16384

noncomputable section

namespace Cert.KernelIdeal.Res

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. The final state's unscoped
    buffers are read against the last thread state, which holds every one of them at the last boundary's contents;
    the result buffer is one of them. -/
theorem run_res : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Res

end
-- ==== Proof.Spec.lean ====
/-
  The two array functions the squeeze-and-excite computation is made of, stated over plain arrays of extended reals.

  * `pooled xf`: the spatial mean of a [32, 12544, 128] array, kept with a unit middle axis:
    entry (b, 0, c) is (Σ_r xf[b, r, c]) / 12544.
  * `scaled xf g`: every entry xf[b, r, c] multiplied by the gate entry g[b, 0, c] of its batch and channel.

  The divisor is kept as the f32 word 0x46440000 (the float 12544.0): both programs divide by the same word, so
  it is never evaluated.
-/
import Idealize.ShloMosaic.PureOps.Ideal
import Idealize.ShloMosaic.Lib.ValueIdx

noncomputable section

open scoped BigOperators

namespace Cert.SE

open Idealize.ShloMosaic Idealize.ShloMosaic.ValueIdx

/-- The input with its two spatial axes kept apart: [32, 112, 112, 128]. -/
abbrev X4 : Shape := ⟨4, ![32, 112, 112, 128]⟩
/-- The input with its two spatial axes merged: [32, 12544, 128], 12544 = 112 · 112. -/
abbrev X3 : Shape := ⟨3, ![32, 12544, 128]⟩
/-- One row per batch, with a unit middle axis: [32, 1, 128]. -/
abbrev P3 : Shape := ⟨3, ![32, 1, 128]⟩
/-- One row per batch: [32, 128]. -/
abbrev P2 : Shape := ⟨2, ![32, 128]⟩

/-- The position (b, r, c) of the merged array. -/
abbrev at3 (b : Fin 32) (r : Fin 12544) (c : Fin 128) : X3.Idx := ix3 b r c
/-- The position (b, 0, c) of a per-batch row with a unit middle axis. -/
abbrev row3 (b : Fin 32) (c : Fin 128) : P3.Idx := ix3 b (0 : Fin 1) c

/-- The spatial mean: at (b, 0, c), the sum over the 12544 merged positions of xf[b, r, c], divided by 12544.0. -/
def pooled (xf : X3.Idx → EReal) : P3.Idx → EReal :=
  fun j => Ideal.div (∑ r : Fin 12544, xf (at3 ⟨(j 0).val, (j 0).isLt⟩ r ⟨(j 2).val, (j 2).isLt⟩))
    (Ideal.ofBits .f32 0x46440000#32)

/-- The gated array: xf[b, r, c] · g[b, 0, c]. -/
def scaled (xf : X3.Idx → EReal) (g : P3.Idx → EReal) : X3.Idx → EReal :=
  fun i => xf i * g (row3 ⟨(i 0).val, (i 0).isLt⟩ ⟨(i 2).val, (i 2).isLt⟩)

end Cert.SE

end
-- ==== Proof.Gate.lean ====
/-
  The excitation gate: from the pooled row s[b, c] and the two weight matrices and bias vectors,

      u = s · w1 + b1                              ([32, 2048])
      h = u · (1/2) · (1 + tanh (0.7978845… · (u + 0.044715 · u³)))      (the tanh form of GELU)
      g = 1 / (1 + exp (−(h · w2 + b2)))           ([32, 128], the logistic function)

  written once over each program's own shape and contraction records, in the order and grouping both programs
  apply the operations. The kernel's program asks for its two products at the highest precision and the reference's
  at the default one; over the extended reals a product is the exact sum of products whatever the precision tag, so
  the two chains are one function (`gate_eq`). Nothing else of the chain is ever opened.
-/
import proofs.«160681_j72808285601940_2_alg».proof.KernelIdeal
import proofs.«160681_j72808285601940_2_alg».proof.ReferenceIdeal
import proofs.«160681_j72808285601940_2_alg».proof.Proof.Gen.KernelIdeal
import proofs.«160681_j72808285601940_2_alg».proof.Proof.Gen.ReferenceIdeal
import Idealize.ShloMosaic.PureOps.Ideal

noncomputable section

namespace Cert.SE

open Idealize.ShloMosaic

/-- The gate as the kernel's program computes it between its two pallas_calls. -/
def gateK (s : FVec Ideal Cert.KernelIdeal.S32x128 .f32) (w1 : FVec Ideal Cert.KernelIdeal.S128x2048 .f32) (b1 : FVec Ideal Cert.KernelIdeal.S2048 .f32)
    (w2 : FVec Ideal Cert.KernelIdeal.S2048x128 .f32) (b2 : FVec Ideal Cert.KernelIdeal.S128 .f32) : FVec Ideal Cert.KernelIdeal.S32x128 .f32 :=
  have v3 := Host.dotGeneral Cert.KernelIdeal.dot_S32x128_S128x2048_S32x2048_1_0_0_1_n_n (some .fp32) s w1
  have v5 := broadcastInDim Cert.KernelIdeal.S32x2048 ![0, 1] (by decide) (broadcastInDim Cert.KernelIdeal.S1x2048 ![1] (by decide) b1)
  have v6 := addf v3 v5
  have v8 := mulf (mulf v6 v6) v6
  have v10 := mulf (broadcastInDim Cert.KernelIdeal.S32x2048 ![] (by decide) (constant (F := Ideal) Cert.KernelIdeal.S_ .f32 0x3D372713#32)) v8
  have v11 := addf v6 v10
  have v13 := mulf (broadcastInDim Cert.KernelIdeal.S32x2048 ![] (by decide) (constant (F := Ideal) Cert.KernelIdeal.S_ .f32 0x3F4C422A#32)) v11
  have v14 := Host.tanh v13
  have v16 := addf (broadcastInDim Cert.KernelIdeal.S32x2048 ![] (by decide) (constant (F := Ideal) Cert.KernelIdeal.S_ .f32 0x3F800000#32)) v14
  have v18 := mulf (broadcastInDim Cert.KernelIdeal.S32x2048 ![] (by decide) (constant (F := Ideal) Cert.KernelIdeal.S_ .f32 0x3F000000#32)) v16
  have v19 := mulf v6 v18
  have v20 := Host.dotGeneral Cert.KernelIdeal.dot_S32x2048_S2048x128_S32x128_1_0_0_1_n_n (some .fp32) v19 w2
  have v22 := broadcastInDim Cert.KernelIdeal.S32x128 ![0, 1] (by decide) (broadcastInDim Cert.KernelIdeal.S1x128 ![1] (by decide) b2)
  have v23 := addf v20 v22
  have v25 := Host.exp (Host.negf v23)
  have v27 := addf (broadcastInDim Cert.KernelIdeal.S32x128 ![] (by decide) (constant (F := Ideal) Cert.KernelIdeal.S_ .f32 0x3F800000#32)) v25
  Host.divf (broadcastInDim Cert.KernelIdeal.S32x128 ![] (by decide) (constant (F := Ideal) Cert.KernelIdeal.S_ .f32 0x3F800000#32)) v27

/-- The gate as the reference computes it. -/
def gateR (s : FVec Ideal Cert.ReferenceIdeal.S32x128 .f32) (w1 : FVec Ideal Cert.ReferenceIdeal.S128x2048 .f32) (b1 : FVec Ideal Cert.ReferenceIdeal.S2048 .f32)
    (w2 : FVec Ideal Cert.ReferenceIdeal.S2048x128 .f32) (b2 : FVec Ideal Cert.ReferenceIdeal.S128 .f32) : FVec Ideal Cert.ReferenceIdeal.S32x128 .f32 :=
  have v3 := Host.dotGeneral Cert.ReferenceIdeal.dot_S32x128_S128x2048_S32x2048_1_0_0_1_n_n none s w1
  have v5 := broadcastInDim Cert.ReferenceIdeal.S32x2048 ![0, 1] (by decide) (broadcastInDim Cert.ReferenceIdeal.S1x2048 ![1] (by decide) b1)
  have v6 := addf v3 v5
  have v8 := mulf (mulf v6 v6) v6
  have v10 := mulf (broadcastInDim Cert.ReferenceIdeal.S32x2048 ![] (by decide) (constant (F := Ideal) Cert.ReferenceIdeal.S_ .f32 0x3D372713#32)) v8
  have v11 := addf v6 v10
  have v13 := mulf (broadcastInDim Cert.ReferenceIdeal.S32x2048 ![] (by decide) (constant (F := Ideal) Cert.ReferenceIdeal.S_ .f32 0x3F4C422A#32)) v11
  have v14 := Host.tanh v13
  have v16 := addf (broadcastInDim Cert.ReferenceIdeal.S32x2048 ![] (by decide) (constant (F := Ideal) Cert.ReferenceIdeal.S_ .f32 0x3F800000#32)) v14
  have v18 := mulf (broadcastInDim Cert.ReferenceIdeal.S32x2048 ![] (by decide) (constant (F := Ideal) Cert.ReferenceIdeal.S_ .f32 0x3F000000#32)) v16
  have v19 := mulf v6 v18
  have v20 := Host.dotGeneral Cert.ReferenceIdeal.dot_S32x2048_S2048x128_S32x128_1_0_0_1_n_n none v19 w2
  have v22 := broadcastInDim Cert.ReferenceIdeal.S32x128 ![0, 1] (by decide) (broadcastInDim Cert.ReferenceIdeal.S1x128 ![1] (by decide) b2)
  have v23 := addf v20 v22
  have v25 := Host.exp (Host.negf v23)
  have v27 := addf (broadcastInDim Cert.ReferenceIdeal.S32x128 ![] (by decide) (constant (F := Ideal) Cert.ReferenceIdeal.S_ .f32 0x3F800000#32)) v25
  Host.divf (broadcastInDim Cert.ReferenceIdeal.S32x128 ![] (by decide) (constant (F := Ideal) Cert.ReferenceIdeal.S_ .f32 0x3F800000#32)) v27

/-- The two chains are one function: they differ only in the precision tag of the two products, and the exact
    product does not read it. -/
theorem gate_eq (s : FVec Ideal Cert.KernelIdeal.S32x128 .f32) (w1 : FVec Ideal Cert.KernelIdeal.S128x2048 .f32) (b1 : FVec Ideal Cert.KernelIdeal.S2048 .f32)
    (w2 : FVec Ideal Cert.KernelIdeal.S2048x128 .f32) (b2 : FVec Ideal Cert.KernelIdeal.S128 .f32) :
    gateK s w1 b1 w2 b2 = gateR s w1 b1 w2 b2 := by
  unfold gateK gateR
  simp only [Host.dotGeneral, Ideal.dotGeneral_def]
  rfl

end Cert.SE

end
-- ==== Proof.Out.lean ====
/-
  The two programs' results as functions of the five argument arrays x, w1, b1, w2, b2.

  * `outK`: the kernel's program. It merges the two spatial axes of x (a reshape), takes the spatial mean per batch
    and channel (`pooled`), drops the unit axis, applies the gate chain (`gateK`), puts the unit axis back, multiplies
    every entry of the merged x by its batch-and-channel gate (`scaled`), and splits the spatial axis again.
  * `pooledR`, `outR`: the reference. It sums x over its two spatial axes from 0, divides by 12544.0, applies the gate
    chain (`gateR`), broadcasts the gate back over the spatial axes and multiplies x by it.

  The two are one function; the sibling module proves it index by index.
-/
import proofs.«160681_j72808285601940_2_alg».proof.Proof.Spec
import proofs.«160681_j72808285601940_2_alg».proof.Proof.Gate

noncomputable section

namespace Cert.SE

open Idealize.ShloMosaic

/-- What the kernel's program leaves in its result array. -/
def outK (x : FVec Ideal Cert.KernelIdeal.S32x112x112x128 .f32) (w1 : FVec Ideal Cert.KernelIdeal.S128x2048 .f32) (b1 : FVec Ideal Cert.KernelIdeal.S2048 .f32)
    (w2 : FVec Ideal Cert.KernelIdeal.S2048x128 .f32) (b2 : FVec Ideal Cert.KernelIdeal.S128 .f32) : FVec Ideal Cert.KernelIdeal.S32x112x112x128 .f32 :=
  shapeCast Cert.KernelIdeal.S32x112x112x128
    (scaled (shapeCast Cert.KernelIdeal.S32x12544x128 x (by decide))
      (shapeCast Cert.KernelIdeal.S32x1x128
        (gateK (shapeCast Cert.KernelIdeal.S32x128 (pooled (shapeCast Cert.KernelIdeal.S32x12544x128 x (by decide))) (by decide)) w1 b1 w2 b2)
        (by decide)))
    (by decide)

/-- The reference's pooled row: the sum of x over its two spatial axes, from 0, divided by 12544.0. -/
def pooledR (x : FVec Ideal Cert.ReferenceIdeal.S32x112x112x128 .f32) : FVec Ideal Cert.ReferenceIdeal.S32x128 .f32 :=
  Host.divf
    (Host.reduceAdd (axes := [1, 2]) (t := Cert.ReferenceIdeal.S32x128) x (constant (F := Ideal) Cert.ReferenceIdeal.S_ .f32 0x00000000#32) (by decide) (by decide))
    (broadcastInDim Cert.ReferenceIdeal.S32x128 ![] (by decide) (constant (F := Ideal) Cert.ReferenceIdeal.S_ .f32 0x46440000#32))

/-- What the reference leaves in its result array. -/
def outR (x : FVec Ideal Cert.ReferenceIdeal.S32x112x112x128 .f32) (w1 : FVec Ideal Cert.ReferenceIdeal.S128x2048 .f32) (b1 : FVec Ideal Cert.ReferenceIdeal.S2048 .f32)
    (w2 : FVec Ideal Cert.ReferenceIdeal.S2048x128 .f32) (b2 : FVec Ideal Cert.ReferenceIdeal.S128 .f32) : FVec Ideal Cert.ReferenceIdeal.S32x112x112x128 .f32 :=
  mulf x
    (broadcastInDim Cert.ReferenceIdeal.S32x112x112x128 ![0, 1, 2, 3] (by decide)
      (broadcastInDim Cert.ReferenceIdeal.S32x1x1x128 ![0, 3] (by decide) (gateR (pooledR x) w1 b1 w2 b2)))

end Cert.SE

end
-- ==== Proof.HostRead.lean ====
/-
  The three stretches of host operations of the kernel's program, read at ANY buffer contents V.

  * Before the first pallas_call one reshape merges the two spatial axes of x: [32,112,112,128] → [32,12544,128].
  * Between the two pallas_calls 35 operations drop the unit axis of the pooled row, apply the gate chain to it and
    the four weight arrays, and put the unit axis back: the gate buffer ends at the reshape of `gateK` of the
    reshaped pooled row. None of them writes the merged input or an argument.
  * After the second pallas_call one reshape splits the merged axis again.
-/
import proofs.«160681_j72808285601940_2_alg».proof.Proof.Gen.KernelIdeal.Launch
import proofs.«160681_j72808285601940_2_alg».proof.Proof.Gate
import Idealize.ShloMosaic.Lib.StableHlo.Run

noncomputable section

namespace Cert.KernelIdeal.HostRead

open Cert.KernelIdeal Cert.KernelIdeal.Gen Idealize.ShloMosaic Idealize.ShloMosaic.TcCoe Idealize.SL.Sem Idealize.ShloMosaic.StableHlo

variable (V : Valuation τ sig (Elt Ideal))

/-- The first stretch leaves in the merged-input buffer the reshape of x. -/
theorem merged : after (hostOps0 (F := Ideal)) V (Proc.devRef .tc main_v0)
    = shapeCast S32x12544x128 (V (Proc.devRef .tc main_arg0)) (by decide) := by
  after_results; rfl

/-- The first stretch writes no argument. -/
theorem merged_keeps_arg1 : after (hostOps0 (F := Ideal)) V (Proc.devRef .tc main_arg1) = V (Proc.devRef .tc main_arg1) := by after_results
theorem merged_keeps_arg2 : after (hostOps0 (F := Ideal)) V (Proc.devRef .tc main_arg2) = V (Proc.devRef .tc main_arg2) := by after_results
theorem merged_keeps_arg3 : after (hostOps0 (F := Ideal)) V (Proc.devRef .tc main_arg3) = V (Proc.devRef .tc main_arg3) := by after_results
theorem merged_keeps_arg4 : after (hostOps0 (F := Ideal)) V (Proc.devRef .tc main_arg4) = V (Proc.devRef .tc main_arg4) := by after_results
theorem merged_keeps_arg0 : after (hostOps0 (F := Ideal)) V (Proc.devRef .tc main_arg0) = V (Proc.devRef .tc main_arg0) := by after_results

/-- The middle stretch leaves in the gate buffer the gate of the pooled row, with a unit middle axis. -/
theorem gate_row : after (hostOps1 (F := Ideal)) V (Proc.devRef .tc main_v30)
    = shapeCast S32x1x128 (Cert.SE.gateK (shapeCast S32x128 (V (Proc.devRef .tc main_v1)) (by decide))
        (V (Proc.devRef .tc main_arg1)) (V (Proc.devRef .tc main_arg2)) (V (Proc.devRef .tc main_arg3)) (V (Proc.devRef .tc main_arg4))) (by decide) := by
  after_results_simp; rfl

/-- The middle stretch does not write the merged input. -/
theorem gate_keeps_merged : after (hostOps1 (F := Ideal)) V (Proc.devRef .tc main_v0) = V (Proc.devRef .tc main_v0) := by
  after_results_simp

/-- The last stretch leaves in the result buffer the second pallas_call's output with its spatial axis split. -/
theorem split : after (hostOps2 (F := Ideal)) V (Proc.devRef .tc main_v32)
    = shapeCast S32x112x112x128 (V (Proc.devRef .tc main_v31)) (by decide) := by
  after_results; rfl

end Cert.KernelIdeal.HostRead

end
-- ==== Proof.Walk.lean ====
/-
  The contents of the kernel program's result buffer at the last segment boundary, as a function of the launch
  memory: the fold of the program's five segments, read one boundary at a time.

      launch  --reshape-->  merged x  --first pallas_call-->  pooled row  --gate chain-->  gate row
              --second pallas_call-->  gated merged array  --reshape-->  result

  The first pallas_call reads the merged x and leaves it as it was; the gate chain writes neither the merged x nor an
  argument; so the second pallas_call finds the merged x of the launch and the gate of its pooled mean. The three
  facts about the pallas_calls themselves — what each leaves in its output array, and that the first leaves its input —
  are taken here as hypotheses over an arbitrary entry contents; the sibling modules prove them.
-/
import proofs.«160681_j72808285601940_2_alg».proof.Proof.Gen.KernelIdeal.Frame
import proofs.«160681_j72808285601940_2_alg».proof.Proof.Out
import proofs.«160681_j72808285601940_2_alg».proof.Proof.HostRead

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- What the walk asks of the two pallas_calls, at any entry contents. -/
structure RegionFacts : Prop where
  pool_out : ∀ (V : (c : Dev nD) → (b : Ref sig .tc) → Buf (Elt Ideal) ((c : Thread nD τ).loc b)) (c : Dev nD),
    (dat0 (F := Ideal) V c).arrAt 1 cfg0.N = Cert.SE.pooled (V c main_v0)
  pool_in : ∀ (V : (c : Dev nD) → (b : Ref sig .tc) → Buf (Elt Ideal) ((c : Thread nD τ).loc b)) (c : Dev nD),
    (dat0 (F := Ideal) V c).arrAt 0 cfg0.N = V c main_v0
  scale_out : ∀ (V : (c : Dev nD) → (b : Ref sig .tc) → Buf (Elt Ideal) ((c : Thread nD τ).loc b)) (c : Dev nD),
    (dat1 (F := Ideal) V c).arrAt 2 cfg1.N = Cert.SE.scaled (V c main_v0) (V c main_v30)

/-- After the first reshape the merged-input buffer holds the reshape of the launched x. -/
theorem at1_merged (c : Dev nD) :
    W1 m ρ c (Proc.devRef .tc main_v0) = shapeCast (s := S32x112x112x128) S32x12544x128 (m ((c : Thread nD τ).loc main_arg0)) (by decide) :=
  HostRead.merged (W0 m ρ c)

/-- The first pallas_call leaves the merged input as it found it. -/
theorem at2_merged (hR : RegionFacts) (c : Dev nD) : W2 m ρ c (Proc.devRef .tc main_v0) = W1 m ρ c (Proc.devRef .tc main_v0) :=
  (W2_arr m ρ c 0).trans (hR.pool_in (V1 m ρ) c)

/-- The first pallas_call leaves the pooled mean of the merged input in its output array. -/
theorem at2_pooled (hR : RegionFacts) (c : Dev nD) : W2 m ρ c (Proc.devRef .tc main_v1) = Cert.SE.pooled (W1 m ρ c (Proc.devRef .tc main_v0)) :=
  (W2_arr m ρ c 1).trans (hR.pool_out (V1 m ρ) c)

/-- Up to the second boundary the four weight arrays are as launched. -/
theorem at2_arg1 (c : Dev nD) : W2 m ρ c (Proc.devRef .tc main_arg1) = m ((c : Thread nD τ).loc main_arg1) :=
  (W2_of_ne m ρ c main_arg1 (by decide)).trans (HostRead.merged_keeps_arg1 (W0 m ρ c))
theorem at2_arg2 (c : Dev nD) : W2 m ρ c (Proc.devRef .tc main_arg2) = m ((c : Thread nD τ).loc main_arg2) :=
  (W2_of_ne m ρ c main_arg2 (by decide)).trans (HostRead.merged_keeps_arg2 (W0 m ρ c))
theorem at2_arg3 (c : Dev nD) : W2 m ρ c (Proc.devRef .tc main_arg3) = m ((c : Thread nD τ).loc main_arg3) :=
  (W2_of_ne m ρ c main_arg3 (by decide)).trans (HostRead.merged_keeps_arg3 (W0 m ρ c))
theorem at2_arg4 (c : Dev nD) : W2 m ρ c (Proc.devRef .tc main_arg4) = m ((c : Thread nD τ).loc main_arg4) :=
  (W2_of_ne m ρ c main_arg4 (by decide)).trans (HostRead.merged_keeps_arg4 (W0 m ρ c))

/-- The gate chain does not write the merged input. -/
theorem at3_merged (c : Dev nD) : W3 m ρ c (Proc.devRef .tc main_v0) = W2 m ρ c (Proc.devRef .tc main_v0) :=
  HostRead.gate_keeps_merged (W2 m ρ c)

/-- After the gate chain the gate buffer holds the gate of the pooled row, with a unit middle axis. -/
theorem at3_gate (c : Dev nD) : W3 m ρ c (Proc.devRef .tc main_v30)
    = shapeCast S32x1x128 (Cert.SE.gateK (shapeCast (s := S32x1x128) S32x128 (W2 m ρ c (Proc.devRef .tc main_v1)) (by decide))
        (W2 m ρ c (Proc.devRef .tc main_arg1)) (W2 m ρ c (Proc.devRef .tc main_arg2)) (W2 m ρ c (Proc.devRef .tc main_arg3)) (W2 m ρ c (Proc.devRef .tc main_arg4))) (by decide) :=
  HostRead.gate_row (W2 m ρ c)

/-- The second pallas_call leaves the gated product of its two inputs in its output array. -/
theorem at4_scaled (hR : RegionFacts) (c : Dev nD) : W4 m ρ c (Proc.devRef .tc main_v31)
    = Cert.SE.scaled (W3 m ρ c (Proc.devRef .tc main_v0)) (W3 m ρ c (Proc.devRef .tc main_v30)) :=
  (W4_arr m ρ c 2).trans (hR.scale_out (V3 m ρ) c)

/-- The last reshape splits the spatial axis of the second pallas_call's output. -/
theorem at5_result (c : Dev nD) : W5 m ρ c (Proc.devRef .tc main_v32)
    = shapeCast (s := S32x12544x128) S32x112x112x128 (W4 m ρ c (Proc.devRef .tc main_v31)) (by decide) :=
  HostRead.split (W4 m ρ c)

/-- The result buffer at the last boundary is `outK` of the five argument arrays as launched. -/
theorem result (hR : RegionFacts) (c : Dev nD) : W5 m ρ c (Proc.devRef .tc main_v32)
    = Cert.SE.outK (m ((c : Thread nD τ).loc main_arg0)) (m ((c : Thread nD τ).loc main_arg1)) (m ((c : Thread nD τ).loc main_arg2))
        (m ((c : Thread nD τ).loc main_arg3)) (m ((c : Thread nD τ).loc main_arg4)) := by
  rw [at5_result, at4_scaled m ρ hR, at3_merged, at3_gate, at2_merged m ρ hR, at2_pooled m ρ hR, at2_arg1, at2_arg2, at2_arg3, at2_arg4, at1_merged]
  rfl

end Cert.KernelIdeal.Walk

end
-- ==== Proof.Region0.lean ====
/-
  The first pallas_call as a function of arrays. Its grid has 32 points, one per batch b. At point b it loads the
  block [1, 12544, 128] of the merged input at block index (b, 0, 0), sums it over its 12544 rows, divides by the float
  12544.0 and stores the [1, 1, 128] result as the block at index (b, 0, 0) of the [32, 1, 128] output array.

  Read entry by entry: the stored block's entry (0, 0, q) is (Σ_r x[b, r, q]) / 12544.0, which is the entry (b, 0, q) of
  the spatial mean `pooled` of the input array; the 32 blocks tile the output array, so after the 32 write-backs the
  output array is `pooled` of the input array. The input array is only read.

  Everything is stated for ANY contents `V` of the buffers at the moment the call is entered.
-/
import proofs.«160681_j72808285601940_2_alg».proof.Proof.Gen.KernelIdeal.Frame
import proofs.«160681_j72808285601940_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's arithmetic at one entry -/

/-- One entry of the stored block. The body drops the block's unit axis, sums over the 12544 rows, puts a unit axis
    back, divides by the splat of the float 12544.0 and puts the second unit axis back; so the entry (0, 0, q) is the
    sum over r of the loaded block at (0, r, q), divided by that float. -/
theorem mean_entry (x0 : Vec Ideal S1x12544x128 .f32) (j : S1x1x128.Idx) :
    k0_pay1 x0 j = Ideal.div (∑ r : Fin 12544, x0 (ix3 (0 : Fin 1) r ⟨(j 2).val, (j 2).isLt⟩)) (Ideal.ofBits .f32 0x46440000#32) := by
  unfold k0_pay1
  -- [1, 128] → [1, 1, 128]: the entry (0, 0, q) reads (0, q)
  refine (shapeCast_addUnit_apply _ _ _ j).trans ?_
  -- the quotient, entry by entry; the divisor is the same float at every entry
  refine (divf_apply _ _ _).trans ?_
  refine congrArg₂ Ideal.div ?_ rfl
  -- [128] → [1, 128]: the entry (0, q) reads q
  refine (shapeCast_addUnit_apply _ _ _ _).trans ?_
  -- the reduction over the row axis is the sum over its 12544 coordinates
  refine (Ideal.multiReduction_add_single _ _ _ _ _ _).trans ?_
  refine Finset.sum_congr rfl (fun k _ => ?_)
  -- [1, 12544, 128] → [12544, 128]: the entry (r, q) reads (0, r, q)
  refine (shapeCast_dropUnit_apply _ _ _ _).trans (congrArg x0 ?_)
  funext a
  match a with
  | ⟨0, _⟩ => rfl
  | ⟨1, _⟩ => rfl
  | ⟨2, _⟩ => rfl

/-! ## Where the blocks sit -/

/-- The zero offsets of a whole-block access, as the constant function. -/
theorem zero_offsets : (![0, 0, 0] : Fin 3 → Nat) = fun _ => 0 := funext fun a => by fin_cases a <;> rfl

/-- At grid point t both the input block and the output block sit at block index (t, 0, 0). -/
theorem block_index : ∀ t : Fin cfg0.N, win0_0.index t = ![t.val, 0, 0] ∧ win0_1.index t = ![t.val, 0, 0] :=
  (by decide +kernel : ∀ t : Fin grid0.N, _)

/-! ## What one grid point writes back -/

/-- What grid point t writes back is block t of the spatial mean of the input array: the entry (0, 0, q) of the stored
    block is the sum over r of the input at (t, r, q) divided by 12544.0, and (t, 0, q) is where that entry lands. -/
theorem writeback_eq_block_of_pooled (c : Dev nD) (t : Fin cfg0.N) :
    (dat0 (F := Ideal) V c).flushed 1 t = ((cfg0.win 1).blk t).view.read (Elt Ideal) (Cert.SE.pooled (V c main_v0)) := by
  show (cfg0.win 1).cut (grid0.coords t) ((dat0 V c).after 1 t) = _
  rw [after0_1]
  unfold out0_1
  rw [View.canon_unit_zero zero_offsets]
  simp only [View.ld_unit_zero (S := S1x12544x128) zero_offsets]
  funext j
  show k0_pay1 (iblk0 V c 0 t) j = Cert.SE.pooled (V c main_v0) (((cfg0.win 1).blk t).view.emb j)
  refine (mean_entry _ _).trans ?_
  unfold Cert.SE.pooled
  refine congrArg₂ Ideal.div (Finset.sum_congr rfl fun r _ => ?_) rfl
  -- the loaded block at (0, r, q) is the input array at (t·1 + 0, 0·12544 + r, 0·128 + q)
  show V c main_v0 (((cfg0.win 0).blk t).view.emb (ix3 (0 : Fin 1) r ⟨(j 2).val, (j 2).isLt⟩)) = V c main_v0 _
  refine congrArg (V c main_v0) ?_
  obtain ⟨e0, e1⟩ := block_index t
  have a0 : win0_0.index t (0 : Fin 3) = t.val := congrFun e0 0
  have a1 : win0_0.index t (1 : Fin 3) = 0 := congrFun e0 1
  have a2 : win0_0.index t (2 : Fin 3) = 0 := congrFun e0 2
  have b0 : win0_1.index t (0 : Fin 3) = t.val := congrFun e1 0
  have b1 : win0_1.index t (1 : Fin 3) = 0 := congrFun e1 1
  have b2 : win0_1.index t (2 : Fin 3) = 0 := congrFun e1 2
  funext a; apply Fin.ext
  -- a block's coordinate in its array: block index × block size + 1 × coordinate inside the block
  match a with
  | ⟨0, _⟩ =>
    show win0_0.index t (0 : Fin 3) * 1 + 1 * 0 = win0_1.index t (0 : Fin 3) * 1 + 1 * (j 0).val
    have hj : (j 0).val < 1 := (j 0).isLt
    omega
  | ⟨1, _⟩ =>
    show win0_0.index t (1 : Fin 3) * 12544 + 1 * r.val = r.val
    omega
  | ⟨2, _⟩ =>
    show win0_0.index t (2 : Fin 3) * 128 + 1 * (j 2).val = win0_1.index t (2 : Fin 3) * 128 + 1 * (j 2).val
    omega

/-! ## The blocks tile the output array -/

/-- An index of the [32, 1, 128] array lies in point t's block iff on every axis its coordinate lies in the block's
    range there: from (block index) × (block size) up to one block size further. -/
theorem mem_block (t : Fin cfg0.N) (i : S32x1x128.Idx) :
    i ∈ ((cfg0.win 1).blk t).view.set ↔ ∀ a : Fin 3, win0_1.index t a * S1x1x128.size a ≤ (i a).val ∧ (i a).val < win0_1.index t a * S1x1x128.size a + S1x1x128.size a := by
  show i ∈ ((View.whole main_v1).slice (win0_1.rect t)).set ↔ _
  rw [View.set_slice_whole, Rect.mem_set_unit]
  exact Iff.rfl

/-- Every index (b, 0, q) of the [32, 1, 128] array lies in the block of the grid point t = b, which writes back. -/
theorem covered (i : S32x1x128.Idx) : ∃ t : Fin cfg0.N, (cfg0.win 1).flush t = true ∧ i ∈ ((cfg0.win 1).blk t).view.set := by
  have hN : grid0.N = 32 := N_0
  have hi0 : (i 0).val < 32 := (i 0).isLt
  have hi1 : (i 1).val < 1 := (i 1).isLt
  have hi2 : (i 2).val < 128 := (i 2).isLt
  obtain ⟨t', ht'⟩ : ∃ t' : Fin cfg0.N, t'.val = (i 0).val := ⟨⟨(i 0).val, by show (i 0).val < grid0.N; omega⟩, rfl⟩
  refine ⟨t', flush0_1 t', ?_⟩
  rw [mem_block]
  obtain ⟨-, e1⟩ := block_index t'
  have b0 : win0_1.index t' (0 : Fin 3) = t'.val := congrFun e1 0
  have b1 : win0_1.index t' (1 : Fin 3) = 0 := congrFun e1 1
  have b2 : win0_1.index t' (2 : Fin 3) = 0 := congrFun e1 2
  intro a
  match a with
  | ⟨0, _⟩ => show win0_1.index t' (0 : Fin 3) * 1 ≤ (i 0).val ∧ (i 0).val < win0_1.index t' (0 : Fin 3) * 1 + 1; omega
  | ⟨1, _⟩ => show win0_1.index t' (1 : Fin 3) * 1 ≤ (i 1).val ∧ (i 1).val < win0_1.index t' (1 : Fin 3) * 1 + 1; omega
  | ⟨2, _⟩ => show win0_1.index t' (2 : Fin 3) * 128 ≤ (i 2).val ∧ (i 2).val < win0_1.index t' (2 : Fin 3) * 128 + 128; omega

/-! ## The two arrays after the call -/

/-- region 0's output array after its 32 write-backs is the pooled mean of its input array -/
theorem arr_out (c : Dev nD) : (dat0 (F := Ideal) V c).arrAt 1 cfg0.N = Cert.SE.pooled (V c main_v0) :=
  (dat0 V c).arrAt_eq_of_cover 1 _ (fun t _ => writeback_eq_block_of_pooled V c t) covered

/-- region 0's input array is never written -/
theorem arr_in (c : Dev nD) : (dat0 (F := Ideal) V c).arrAt 0 cfg0.N = V c main_v0 :=
  ((dat0 V c).arrAt_in 0 rfl _).trans (A_eq0 V c 0)

end Cert.KernelIdeal.Region0

end
-- ==== Proof.Region1.lean ====
/-
  The second pallas_call as a function of arrays. Its grid has 32 points, one per batch b. At point b it loads the
  block [1, 12544, 128] of the merged input at block index (b, 0, 0) and the block [1, 1, 128] of the gate at block
  index (b, 0, 0), multiplies every row of the first by the one row of the second, and stores the [1, 12544, 128]
  product as the block at index (b, 0, 0) of the output array.

  Read entry by entry: the stored block's entry (0, r, q) is x[b, r, q] · g[b, 0, q], which is the entry (b, r, q) of
  `scaled` of the two input arrays; the 32 blocks tile the output array, so after the 32 write-backs the output array
  is `scaled` of the two input arrays.

  Everything is stated for ANY contents `V` of the buffers at the moment the call is entered.
-/
import proofs.«160681_j72808285601940_2_alg».proof.Proof.Gen.KernelIdeal.Frame
import proofs.«160681_j72808285601940_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's arithmetic at one entry -/

/-- One entry of the stored block. The body drops the unit axis of both loaded blocks, repeats the gate's one row
    over the 12544 rows, multiplies entry by entry and puts the unit axis back; so the entry (0, r, q) is the first
    block at (0, r, q) times the gate block at (0, 0, q). -/
theorem gated_entry (x0 : Vec Ideal S1x12544x128 .f32) (x1 : Vec Ideal S1x1x128 .f32) (j : S1x12544x128.Idx) :
    k1_pay1 x0 x1 j = x0 j * x1 (ix3 (0 : Fin 1) (0 : Fin 1) ⟨(j 2).val, (j 2).isLt⟩) := by
  unfold k1_pay1
  -- [12544, 128] → [1, 12544, 128]: the entry (0, r, q) reads (r, q)
  refine (shapeCast_addUnit_apply _ _ _ j).trans ?_
  -- the product, entry by entry
  refine (mulf_apply _ _ _).trans ?_
  -- [1, 12544, 128] → [12544, 128]: the entry (r, q) reads (0, r, q), which is j since j's first coordinate is 0
  have e0 : shapeCast S12544x128 x0 shapeCasts_S1x12544x128_S12544x128 (fun a => j a.succ) = x0 j := by
    refine (shapeCast_dropUnit_apply _ _ _ _).trans (congrArg x0 ?_)
    funext a
    match a with
    | ⟨0, _⟩ => apply Fin.ext; have h : (j 0).val < 1 := (j 0).isLt; show 0 = (j 0).val; omega
    | ⟨1, _⟩ => rfl
    | ⟨2, _⟩ => rfl
  -- [1, 128] repeated to [12544, 128] reads (0, q) at (r, q); [1, 1, 128] → [1, 128] reads (0, 0, q) at (0, q)
  have e1 : broadcastTo S12544x128 (shapeCast S1x128 x1 shapeCasts_S1x1x128_S1x128) broadcasts_S1x128_S12544x128 (fun a => j a.succ)
      = x1 (ix3 (0 : Fin 1) (0 : Fin 1) ⟨(j 2).val, (j 2).isLt⟩) := by
    refine (broadcastTo_apply _ _ _ (ix2 (0 : Fin 1) ⟨(j 2).val, (j 2).isLt⟩) ?_).trans ?_
    · intro a
      match a with
      | ⟨0, _⟩ => rfl
      | ⟨1, _⟩ => rfl
    · refine (shapeCast_dropUnit_apply _ _ _ _).trans (congrArg x1 ?_)
      funext a
      match a with
      | ⟨0, _⟩ => rfl
      | ⟨1, _⟩ => rfl
      | ⟨2, _⟩ => rfl
  rw [e0, e1]

/-! ## Where the blocks sit -/

/-- The zero offsets of a whole-block access, as the constant function. -/
theorem zero_offsets : (![0, 0, 0] : Fin 3 → Nat) = fun _ => 0 := funext fun a => by fin_cases a <;> rfl

/-- At grid point t the two input blocks and the output block all sit at block index (t, 0, 0). -/
theorem block_index : ∀ t : Fin cfg1.N, win1_0.index t = ![t.val, 0, 0] ∧ win1_1.index t = ![t.val, 0, 0] ∧ win1_2.index t = ![t.val, 0, 0] :=
  (by decide +kernel : ∀ t : Fin grid1.N, _)

/-! ## What one grid point writes back -/

/-- What grid point t writes back is block t of the gated array: the entry (0, r, q) of the stored block is the input
    at (t, r, q) times the gate at (t, 0, q), and (t, r, q) is where that entry lands. -/
theorem writeback_eq_block_of_scaled (c : Dev nD) (t : Fin cfg1.N) :
    (dat1 (F := Ideal) V c).flushed 2 t = ((cfg1.win 2).blk t).view.read (Elt Ideal) (Cert.SE.scaled (V c main_v0) (V c main_v30)) := by
  show (cfg1.win 2).cut (grid1.coords t) ((dat1 V c).after 2 t) = _
  rw [after1_2]
  unfold out1_2
  rw [View.canon_unit_zero zero_offsets]
  simp only [View.ld_unit_zero (S := S1x12544x128) zero_offsets, View.ld_unit_zero (S := S1x1x128) zero_offsets]
  funext j
  show k1_pay1 (iblk1 V c 0 t) (iblk1 V c 1 t) j = Cert.SE.scaled (V c main_v0) (V c main_v30) (((cfg1.win 2).blk t).view.emb j)
  refine (gated_entry _ _ _).trans ?_
  unfold Cert.SE.scaled
  obtain ⟨e0, e1, e2⟩ := block_index t
  have a0 : win1_0.index t (0 : Fin 3) = t.val := congrFun e0 0
  have a1 : win1_0.index t (1 : Fin 3) = 0 := congrFun e0 1
  have a2 : win1_0.index t (2 : Fin 3) = 0 := congrFun e0 2
  have b0 : win1_1.index t (0 : Fin 3) = t.val := congrFun e1 0
  have b1 : win1_1.index t (1 : Fin 3) = 0 := congrFun e1 1
  have b2 : win1_1.index t (2 : Fin 3) = 0 := congrFun e1 2
  have c0 : win1_2.index t (0 : Fin 3) = t.val := congrFun e2 0
  have c1 : win1_2.index t (1 : Fin 3) = 0 := congrFun e2 1
  have c2 : win1_2.index t (2 : Fin 3) = 0 := congrFun e2 2
  have hj0 : (j 0).val < 1 := (j 0).isLt
  -- a block's coordinate in its array: block index × block size + 1 × coordinate inside the block
  -- the input block and the output block sit at the same place
  have h0 : iblk1 V c 0 t j = V c main_v0 (((cfg1.win 2).blk t).view.emb j) := by
    show V c main_v0 (((cfg1.win 0).blk t).view.emb j) = _
    refine congrArg (V c main_v0) ?_
    funext a; apply Fin.ext
    match a with
    | ⟨0, _⟩ => show win1_0.index t (0 : Fin 3) * 1 + 1 * (j 0).val = win1_2.index t (0 : Fin 3) * 1 + 1 * (j 0).val; omega
    | ⟨1, _⟩ => show win1_0.index t (1 : Fin 3) * 12544 + 1 * (j 1).val = win1_2.index t (1 : Fin 3) * 12544 + 1 * (j 1).val; omega
    | ⟨2, _⟩ => show win1_0.index t (2 : Fin 3) * 128 + 1 * (j 2).val = win1_2.index t (2 : Fin 3) * 128 + 1 * (j 2).val; omega
  -- the gate block's entry (0, 0, q) is the gate array at (t, 0, q): the batch and channel of the output entry
  have h1 : iblk1 V c 1 t (ix3 (0 : Fin 1) (0 : Fin 1) ⟨(j 2).val, (j 2).isLt⟩)
      = V c main_v30 (Cert.SE.row3 ⟨((((cfg1.win 2).blk t).view.emb j) 0).val, ((((cfg1.win 2).blk t).view.emb j) 0).isLt⟩
          ⟨((((cfg1.win 2).blk t).view.emb j) 2).val, ((((cfg1.win 2).blk t).view.emb j) 2).isLt⟩) := by
    show V c main_v30 (((cfg1.win 1).blk t).view.emb (ix3 (0 : Fin 1) (0 : Fin 1) ⟨(j 2).val, (j 2).isLt⟩)) = _
    refine congrArg (V c main_v30) ?_
    funext a; apply Fin.ext
    match a with
    | ⟨0, _⟩ => show win1_1.index t (0 : Fin 3) * 1 + 1 * 0 = win1_2.index t (0 : Fin 3) * 1 + 1 * (j 0).val; omega
    | ⟨1, _⟩ => show win1_1.index t (1 : Fin 3) * 1 + 1 * 0 = 0; omega
    | ⟨2, _⟩ => show win1_1.index t (2 : Fin 3) * 128 + 1 * (j 2).val = win1_2.index t (2 : Fin 3) * 128 + 1 * (j 2).val; omega
  rw [h0, h1]

/-! ## The blocks tile the output array -/

/-- An index of the [32, 12544, 128] array lies in point t's block iff on every axis its coordinate lies in the
    block's range there: from (block index) × (block size) up to one block size further. -/
theorem mem_block (t : Fin cfg1.N) (i : S32x12544x128.Idx) :
    i ∈ ((cfg1.win 2).blk t).view.set ↔ ∀ a : Fin 3, win1_2.index t a * S1x12544x128.size a ≤ (i a).val ∧ (i a).val < win1_2.index t a * S1x12544x128.size a + S1x12544x128.size a := by
  show i ∈ ((View.whole main_v31).slice (win1_2.rect t)).set ↔ _
  rw [View.set_slice_whole, Rect.mem_set_unit]
  exact Iff.rfl

/-- Every index (b, r, q) of the [32, 12544, 128] array lies in the block of the grid point t = b, which writes back. -/
theorem covered (i : S32x12544x128.Idx) : ∃ t : Fin cfg1.N, (cfg1.win 2).flush t = true ∧ i ∈ ((cfg1.win 2).blk t).view.set := by
  have hN : grid1.N = 32 := N_1
  have hi0 : (i 0).val < 32 := (i 0).isLt
  have hi1 : (i 1).val < 12544 := (i 1).isLt
  have hi2 : (i 2).val < 128 := (i 2).isLt
  obtain ⟨t', ht'⟩ : ∃ t' : Fin cfg1.N, t'.val = (i 0).val := ⟨⟨(i 0).val, by show (i 0).val < grid1.N; omega⟩, rfl⟩
  refine ⟨t', flush1_2 t', ?_⟩
  rw [mem_block]
  obtain ⟨-, -, e2⟩ := block_index t'
  have c0 : win1_2.index t' (0 : Fin 3) = t'.val := congrFun e2 0
  have c1 : win1_2.index t' (1 : Fin 3) = 0 := congrFun e2 1
  have c2 : win1_2.index t' (2 : Fin 3) = 0 := congrFun e2 2
  intro a
  match a with
  | ⟨0, _⟩ => show win1_2.index t' (0 : Fin 3) * 1 ≤ (i 0).val ∧ (i 0).val < win1_2.index t' (0 : Fin 3) * 1 + 1; omega
  | ⟨1, _⟩ => show win1_2.index t' (1 : Fin 3) * 12544 ≤ (i 1).val ∧ (i 1).val < win1_2.index t' (1 : Fin 3) * 12544 + 12544; omega
  | ⟨2, _⟩ => show win1_2.index t' (2 : Fin 3) * 128 ≤ (i 2).val ∧ (i 2).val < win1_2.index t' (2 : Fin 3) * 128 + 128; omega

/-! ## The output array after the call -/

/-- region 1's output array is the gated product of its two input arrays -/
theorem arr_out (c : Dev nD) : (dat1 (F := Ideal) V c).arrAt 2 cfg1.N = Cert.SE.scaled (V c main_v0) (V c main_v30) :=
  (dat1 V c).arrAt_eq_of_cover 2 _ (fun t _ => writeback_eq_block_of_scaled V c t) covered

end Cert.KernelIdeal.Region1

end
-- ==== Proof.RefRun.lean ====
/-
  The reference's run, with its result stated through the named function outR of the five argument arrays.

  The run theorem of the reference's program states the result array as the composed term of the program's 41 host
  operations. That term is outR of the arguments written out: the sum of x over its two spatial axes from 0, divided
  by 12544.0 (pooledR); the gate chain applied to it (gateR); the gate broadcast back over the spatial axes and
  multiplied into x. The two spellings differ only in which proofs of the shape conditions they carry, and any two
  proofs of one proposition are equal, so the equation holds by unfolding the three definitions.
-/
import proofs.«160681_j72808285601940_2_alg».proof.Proof.Gen.ReferenceIdeal.Run
import proofs.«160681_j72808285601940_2_alg».proof.Proof.Out

noncomputable section

namespace Cert.ReferenceIdeal.RefValue

open Cert.ReferenceIdeal Cert.ReferenceIdeal.Gen Idealize.ShloMosaic Idealize.ShloMosaic.TcCoe Idealize.SL.Sem

/-- The reference's run: its result array ends holding outR of the five argument arrays as launched, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = Cert.SE.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      generalize m ((c.tc : Thread nD τ).loc main_arg0) = x
      generalize m ((c.tc : Thread nD τ).loc main_arg1) = w1
      generalize m ((c.tc : Thread nD τ).loc main_arg2) = b1
      generalize m ((c.tc : Thread nD τ).loc main_arg3) = w2
      generalize m ((c.tc : Thread nD τ).loc main_arg4) = b2
      unfold Cert.SE.outR Cert.SE.pooledR Cert.SE.gateR
      rfl), (h c).2⟩)
    (Cert.ReferenceIdeal.Value.run (F := Ideal) m ρ)

end Cert.ReferenceIdeal.RefValue

end
-- ==== Proof.LibMidSum.lean ====
/-
  The host's sum over the two MIDDLE axes of a rank-4 array, read at an entry.

  A `stablehlo.reduce` with an add body across dimensions [1, 2] of an array of shape [n0, n1, n2, n3] (what
  `jnp.sum(x, axis=(1, 2))` and `jnp.mean(x, axis=(1, 2))` lower to) is, over the extended reals and at the entry (b, c)
  of its [n0, n3] result, the initial value plus the sum over the pairs (p, q) of middle coordinates of x[b, p, q, c]:
  the source indices that reduce to (b, c) are exactly those whose first and last coordinates are b and c, and they
  correspond one to one to the pairs of middle coordinates. Generic in the four extents; the re-indexing lemma holds in
  any additive commutative monoid.
-/
import Idealize.ShloMosaic.Lib.ValueIdx
import Idealize.ShloMosaic.PureOps.Ideal.Laws

noncomputable section

open scoped BigOperators

namespace Cert.LibMidSum

open Idealize.ShloMosaic Idealize.ShloMosaic.ValueIdx

/-- Dropping the two middle coordinates of a rank-4 index keeps the first and the last. -/
theorem drop_mid_val {n0 n1 n2 n3 : Nat}
    (h : (⟨4, ![n0, n1, n2, n3]⟩ : Shape).ReducesTo [1, 2] ⟨2, ![n0, n3]⟩)
    (i : (⟨4, ![n0, n1, n2, n3]⟩ : Shape).Idx) :
    (h.drop i 0).val = (i 0).val ∧ (h.drop i 1).val = (i 3).val :=
  ⟨rfl, rfl⟩

/-- The sum over the rank-4 indices whose first and last coordinates are those of j is the sum over the pairs of
    middle coordinates. -/
theorem sum_filter_drop_mid {α : Type} [AddCommMonoid α] {n0 n1 n2 n3 : Nat}
    (h : (⟨4, ![n0, n1, n2, n3]⟩ : Shape).ReducesTo [1, 2] ⟨2, ![n0, n3]⟩)
    (x : (⟨4, ![n0, n1, n2, n3]⟩ : Shape).Idx → α) (b : Fin n0) (c : Fin n3) :
    ∑ i ∈ Finset.univ.filter (fun i => h.drop i = ix2 b c), x i
      = ∑ p : Fin n1 × Fin n2, x (ix4 b p.1 p.2 c) := by
  refine Finset.sum_nbij' (fun i => (i 1, i 2)) (fun p => ix4 b p.1 p.2 c) ?_ ?_ ?_ ?_ ?_
  · intro i _; exact Finset.mem_univ _
  · intro p _
    refine Finset.mem_filter.2 ⟨Finset.mem_univ _, ?_⟩
    funext a
    match a with
    | ⟨0, _⟩ => exact Fin.ext (drop_mid_val h _).1
    | ⟨1, _⟩ => exact Fin.ext (drop_mid_val h _).2
  · intro i hi
    have hj := (Finset.mem_filter.1 hi).2
    have h0 : (i 0).val = b.val := by rw [← (drop_mid_val h i).1, hj]; rfl
    have h3 : (i 3).val = c.val := by rw [← (drop_mid_val h i).2, hj]; rfl
    funext a
    match a with
    | ⟨0, _⟩ => exact Fin.ext h0.symm
    | ⟨1, _⟩ => rfl
    | ⟨2, _⟩ => rfl
    | ⟨3, _⟩ => exact Fin.ext h3.symm
  · intro p _; rfl
  · intro i hi
    have hj := (Finset.mem_filter.1 hi).2
    have h0 : (i 0).val = b.val := by rw [← (drop_mid_val h i).1, hj]; rfl
    have h3 : (i 3).val = c.val := by rw [← (drop_mid_val h i).2, hj]; rfl
    refine congrArg x ?_
    funext a
    match a with
    | ⟨0, _⟩ => exact Fin.ext h0
    | ⟨1, _⟩ => rfl
    | ⟨2, _⟩ => rfl
    | ⟨3, _⟩ => exact Fin.ext h3

/-- The host's sum over the two middle axes of a rank-4 array, read at (b, c): the initial value plus the sum over
    the pairs of middle coordinates. -/
theorem hostReduceAdd_mid {n0 n1 n2 n3 : Nat}
    (h : (⟨4, ![n0, n1, n2, n3]⟩ : Shape).ReducesTo [1, 2] ⟨2, ![n0, n3]⟩)
    (x : (⟨4, ![n0, n1, n2, n3]⟩ : Shape).Idx → EReal) (init : EReal) (b : Fin n0) (c : Fin n3) :
    Ideal.hostReduceAdd h x init (ix2 b c) = init + ∑ p : Fin n1 × Fin n2, x (ix4 b p.1 p.2 c) := by
  unfold Ideal.hostReduceAdd
  rw [sum_filter_drop_mid]

end Cert.LibMidSum

end
-- ==== Proof.Bridge.lean ====
/-
  The kernel's program and the reference compute one function of the five argument arrays.

  Two facts carry it.

  * The pooled rows agree (pooled_eq). The kernel's program merges the two spatial axes of x into one of length
    12544 = 112 · 112 and averages over it; the reference sums over the two spatial axes from 0 and divides by the
    same 12544.0. Merging keeps row-major positions, so the merged array at (b, r, c) is x at (b, r / 112, r % 112, c);
    the reference's sum at (b, c) runs over the indices of x whose first and last coordinates are b and c, which are
    the pairs (h, w) of middle coordinates (sum_filter_drop_mid of the sibling module, for any extents); and (h, w) ↦ 112 h + w is a
    bijection from the pairs to the merged coordinates. Addition of extended reals is commutative and associative, so
    a finite sum may be re-indexed along a bijection with no finiteness condition.

  * Read at (b, h, w, c), both results are x[b, h, w, c] · g[b, c], g the gate of the pooled row
    (split_scaled_apply, bcast_mul_apply): on the kernel's side through three reshapes that keep row-major
    positions, on the reference's side through two broadcasts along unit axes.

  The gate chain itself is never opened: the two chains are one function (gate_eq), applied to equal pooled rows.
-/
import proofs.«160681_j72808285601940_2_alg».proof.Proof.Out
import proofs.«160681_j72808285601940_2_alg».proof.Proof.LibMidSum
import Idealize.ShloMosaic.Lib.Pipeline.Value
import Idealize.ShloMosaic.Lib.ValueIdx
import Idealize.ShloMosaic.PureOps.Ideal.Laws

noncomputable section

open scoped BigOperators

namespace Cert.SE

open Idealize.ShloMosaic Idealize.ShloMosaic.ValueIdx Cert.LibMidSum

/-- A sum over pairs (h, w) of coordinates below 112 is the sum over the merged coordinate r = 112 h + w below 12544,
    the pair read back as (r / 112, r % 112). -/
theorem sum_pairs_eq_sum_merged {α : Type} [AddCommMonoid α] (f : Fin 112 × Fin 112 → α) :
    ∑ p : Fin 112 × Fin 112, f p
      = ∑ r : Fin 12544, f (⟨r.val / 112, by have := r.isLt; omega⟩, ⟨r.val % 112, by omega⟩) := by
  refine Finset.sum_nbij' (fun p => ⟨p.1.val * 112 + p.2.val, by have := p.1.isLt; have := p.2.isLt; omega⟩)
    (fun r => (⟨r.val / 112, by have := r.isLt; omega⟩, ⟨r.val % 112, by omega⟩)) ?_ ?_ ?_ ?_ ?_
  · intro p _; exact Finset.mem_univ _
  · intro r _; exact Finset.mem_univ _
  · intro p _
    have h1 := p.1.isLt
    have h2 := p.2.isLt
    refine Prod.ext (Fin.ext ?_) (Fin.ext ?_)
    · show (p.1.val * 112 + p.2.val) / 112 = p.1.val; omega
    · show (p.1.val * 112 + p.2.val) % 112 = p.2.val; omega
  · intro r _
    refine Fin.ext ?_
    show r.val / 112 * 112 + r.val % 112 = r.val; omega
  · intro p _
    have h1 := p.1.isLt
    have h2 := p.2.isLt
    refine congrArg f (Prod.ext (Fin.ext ?_) (Fin.ext ?_))
    · show p.1.val = (p.1.val * 112 + p.2.val) / 112; omega
    · show p.2.val = (p.1.val * 112 + p.2.val) % 112; omega

/-- The merged array at (b, r, c) is the array at (b, r / 112, r % 112, c): the two positions are the same
    row-major position. -/
theorem merged_apply (x : FVec Ideal Cert.KernelIdeal.S32x112x112x128 .f32)
    (hc : Cert.KernelIdeal.S32x112x112x128.ShapeCasts Cert.KernelIdeal.S32x12544x128)
    (b : Fin 32) (r : Fin 12544) (c : Fin 128) :
    shapeCast Cert.KernelIdeal.S32x12544x128 x hc (at3 b r c)
      = x (ix4 b ⟨r.val / 112, by have := r.isLt; omega⟩ ⟨r.val % 112, by omega⟩ c) := by
  refine shapeCast_apply x hc _ _ ?_
  rw [Shape.rowMajor_val_four, Shape.rowMajor_val_three]
  show ((b.val * 112 + r.val / 112) * 112 + r.val % 112) * 128 + c.val = (b.val * 12544 + r.val) * 128 + c.val
  omega

/-- The pooled rows agree: the mean over the merged axis of the reshaped array is the mean over the two spatial axes. -/
theorem pooled_eq (x : FVec Ideal Cert.KernelIdeal.S32x112x112x128 .f32) :
    shapeCast Cert.KernelIdeal.S32x128 (pooled (shapeCast Cert.KernelIdeal.S32x12544x128 x (by decide))) (by decide) = pooledR x := by
  funext j
  obtain ⟨b, c, rfl⟩ : ∃ (b : Fin 32) (c : Fin 128), j = ix2 b c := ⟨j 0, j 1, eq_ix2 j⟩
  rw [shapeCast_apply _ _ (ix2 b c) (row3 b c) (by
    rw [Shape.rowMajor_val_three, Shape.rowMajor_val_two]
    show (b.val * 1 + 0) * 128 + c.val = b.val * 128 + c.val
    omega)]
  show Ideal.div (∑ r : Fin 12544, shapeCast Cert.KernelIdeal.S32x12544x128 x _ (at3 b r c)) (Ideal.ofBits .f32 0x46440000#32)
     = Ideal.div (Ideal.hostReduceAdd (s := Cert.KernelIdeal.S32x112x112x128) (axes := [1, 2]) (t := Cert.KernelIdeal.S32x128)
          (by decide) x (Ideal.ofBits .f32 0x00000000#32) (ix2 b c)) (Ideal.ofBits .f32 0x46440000#32)
  rw [hostReduceAdd_mid, Ideal.ofBits_zero_f32, zero_add, sum_pairs_eq_sum_merged]
  exact congrArg (fun s => Ideal.div s (Ideal.ofBits .f32 0x46440000#32))
    (Finset.sum_congr rfl fun r _ => merged_apply x _ b r c)

/-- The kernel's side at an index: merging the spatial axes, multiplying by the gate row with a unit middle axis, and
    splitting the spatial axes again reads, at (b, h, w, c), x[b, h, w, c] · g[b, c]. All three reshapes keep the
    row-major position: (b, h, w, c) of [32, 112, 112, 128] and (b, 112 h + w, c) of [32, 12544, 128] are one position,
    and so are (b, 0, c) of [32, 1, 128] and (b, c) of [32, 128]. -/
theorem split_scaled_apply (x : FVec Ideal Cert.KernelIdeal.S32x112x112x128 .f32) (g : FVec Ideal Cert.KernelIdeal.S32x128 .f32)
    (h1 : Cert.KernelIdeal.S32x112x112x128.ShapeCasts Cert.KernelIdeal.S32x12544x128)
    (h2 : Cert.KernelIdeal.S32x128.ShapeCasts Cert.KernelIdeal.S32x1x128)
    (h3 : Cert.KernelIdeal.S32x12544x128.ShapeCasts Cert.KernelIdeal.S32x112x112x128)
    (b : Fin 32) (h : Fin 112) (w : Fin 112) (c : Fin 128) :
    shapeCast Cert.KernelIdeal.S32x112x112x128
        (scaled (shapeCast Cert.KernelIdeal.S32x12544x128 x h1) (shapeCast Cert.KernelIdeal.S32x1x128 g h2)) h3 (ix4 b h w c)
      = x (ix4 b h w c) * g (ix2 b c) := by
  have hh := h.isLt
  have hw := w.isLt
  rw [shapeCast_apply _ h3 (ix4 b h w c) (at3 b ⟨h.val * 112 + w.val, by omega⟩ c) (by
    rw [Shape.rowMajor_val_three, Shape.rowMajor_val_four]
    show (b.val * 12544 + (h.val * 112 + w.val)) * 128 + c.val = ((b.val * 112 + h.val) * 112 + w.val) * 128 + c.val
    omega)]
  show shapeCast Cert.KernelIdeal.S32x12544x128 x h1 (at3 b ⟨h.val * 112 + w.val, by omega⟩ c)
      * shapeCast Cert.KernelIdeal.S32x1x128 g h2 (row3 b c) = _
  rw [shapeCast_apply x h1 (at3 b ⟨h.val * 112 + w.val, by omega⟩ c) (ix4 b h w c) (by
    rw [Shape.rowMajor_val_four, Shape.rowMajor_val_three]
    show ((b.val * 112 + h.val) * 112 + w.val) * 128 + c.val = (b.val * 12544 + (h.val * 112 + w.val)) * 128 + c.val
    omega)]
  rw [shapeCast_apply g h2 (row3 b c) (ix2 b c) (by
    rw [Shape.rowMajor_val_two, Shape.rowMajor_val_three]
    show b.val * 128 + c.val = (b.val * 1 + 0) * 128 + c.val
    omega)]

/-- The reference's side at an index: the gate broadcast along two new unit axes and then along the spatial axes,
    multiplied into x, reads, at (b, h, w, c), x[b, h, w, c] · g[b, c]. -/
theorem bcast_mul_apply (x : FVec Ideal Cert.ReferenceIdeal.S32x112x112x128 .f32) (g : FVec Ideal Cert.ReferenceIdeal.S32x128 .f32)
    (h1 : Cert.ReferenceIdeal.S32x1x1x128.BroadcastsInDim Cert.ReferenceIdeal.S32x112x112x128 ![0, 1, 2, 3])
    (h2 : Cert.ReferenceIdeal.S32x128.BroadcastsInDim Cert.ReferenceIdeal.S32x1x1x128 ![0, 3])
    (b : Fin 32) (h : Fin 112) (w : Fin 112) (c : Fin 128) :
    mulf x (broadcastInDim Cert.ReferenceIdeal.S32x112x112x128 ![0, 1, 2, 3] h1
        (broadcastInDim Cert.ReferenceIdeal.S32x1x1x128 ![0, 3] h2 g)) (ix4 b h w c)
      = x (ix4 b h w c) * g (ix2 b c) := by
  rw [mulf_apply]
  rw [broadcastInDim_apply _ h1 _ (ix4 b h w c) (ix4 b (0 : Fin 1) (0 : Fin 1) c) (fun a => match a with
    | ⟨0, _⟩ => by show b.val = if (32 : Nat) = 1 then 0 else b.val; rw [if_neg (by decide)]
    | ⟨1, _⟩ => by show 0 = if (1 : Nat) = 1 then 0 else h.val; rw [if_pos rfl]
    | ⟨2, _⟩ => by show 0 = if (1 : Nat) = 1 then 0 else w.val; rw [if_pos rfl]
    | ⟨3, _⟩ => by show c.val = if (128 : Nat) = 1 then 0 else c.val; rw [if_neg (by decide)])]
  rw [broadcastInDim_apply _ h2 g (ix4 b (0 : Fin 1) (0 : Fin 1) c) (ix2 b c) (fun a => match a with
    | ⟨0, _⟩ => by show b.val = if (32 : Nat) = 1 then 0 else b.val; rw [if_neg (by decide)]
    | ⟨1, _⟩ => by show c.val = if (128 : Nat) = 1 then 0 else c.val; rw [if_neg (by decide)])]

/-- The two programs compute one function of the arguments. -/
theorem out_eq (x : FVec Ideal Cert.KernelIdeal.S32x112x112x128 .f32) (w1 : FVec Ideal Cert.KernelIdeal.S128x2048 .f32) (b1 : FVec Ideal Cert.KernelIdeal.S2048 .f32)
    (w2 : FVec Ideal Cert.KernelIdeal.S2048x128 .f32) (b2 : FVec Ideal Cert.KernelIdeal.S128 .f32) :
    outK x w1 b1 w2 b2 = outR x w1 b1 w2 b2 := by
  funext i
  obtain ⟨b, h, w, c, rfl⟩ : ∃ (b : Fin 32) (h : Fin 112) (w : Fin 112) (c : Fin 128), i = ix4 b h w c :=
    ⟨i 0, i 1, i 2, i 3, eq_ix4 i⟩
  unfold outK outR
  rw [split_scaled_apply, bcast_mul_apply, gate_eq, pooled_eq]

end Cert.SE

end
-- ==== Proof.lean ====
/-
  The certificate of a squeeze-and-excite block on x : f32[32, 112, 112, 128].

  The kernel's program merges the two spatial axes of x, takes the spatial mean per batch and channel in a first
  pallas_call (one grid point per batch: the sum of the 12544 rows of the batch's slab, divided by 12544.0), computes the
  excitation gate on the host from that pooled row (s · w1 + b1, the tanh form of GELU, · w2 + b2, the logistic function),
  multiplies every entry of the merged x by the gate of its batch and channel in a second pallas_call (again one point per
  batch), and splits the spatial axis again. The reference sums x over its two spatial axes, divides by the same 12544.0,
  applies the same gate chain, broadcasts the gate over the spatial axes and multiplies.

  Over the extended reals the two are one function of the five arguments (`Cert.SE.out_eq`): the merged position
  r = h · 112 + w runs over the 12544 pairs (h, w) exactly once, so the two pooled sums have the same terms, and a finite
  sum in a commutative monoid does not depend on the order of its terms — no finiteness of the inputs is used; the gate
  chain is the same operations on both sides and is never opened; the final product is entry by entry the same.

  The modules: `Spec`, `Gate`, `Out` state the functions; `KFrame` is the kernel program's run with its result named;
  `HostRead`, `Region0`, `Region1`, `Walk` read that result back, segment by segment, as `outK` of the arguments;
  `RefRun` is the reference's run at `outR` of the arguments; `Bridge` proves `outK = outR`. The three frame claims are
  the generated frames (the reference's is its run with the result dropped); the idealization rewrote nothing, so
  `preserves` is trivial.
-/
import proofs.«160681_j72808285601940_2_alg».proof.Defs
import proofs.«160681_j72808285601940_2_alg».proof.Proof.Gen.Kernel
import proofs.«160681_j72808285601940_2_alg».proof.Proof.Gen.Kernel.Skeleton
import proofs.«160681_j72808285601940_2_alg».proof.Proof.Gen.Kernel.Launch
import proofs.«160681_j72808285601940_2_alg».proof.Proof.Gen.Kernel.Points
import proofs.«160681_j72808285601940_2_alg».proof.Proof.Gen.Kernel.Frame
import proofs.«160681_j72808285601940_2_alg».proof.Proof.Gen.KernelIdeal
import proofs.«160681_j72808285601940_2_alg».proof.Proof.Gen.KernelIdeal.Skeleton
import proofs.«160681_j72808285601940_2_alg».proof.Proof.Gen.KernelIdeal.Launch
import proofs.«160681_j72808285601940_2_alg».proof.Proof.Gen.KernelIdeal.Points
import proofs.«160681_j72808285601940_2_alg».proof.Proof.Gen.KernelIdeal.Frame
import proofs.«160681_j72808285601940_2_alg».proof.Proof.Gen.ReferenceIdeal
import proofs.«160681_j72808285601940_2_alg».proof.Proof.Gen.ReferenceIdeal.Run
import proofs.«160681_j72808285601940_2_alg».proof.Proof.Gen.ReferenceIdeal.Read
import proofs.«160681_j72808285601940_2_alg».proof.Proof.Gen.Pre_finite_inputs
import proofs.«160681_j72808285601940_2_alg».proof.Proof.KFrame
import proofs.«160681_j72808285601940_2_alg».proof.Proof.Walk
import proofs.«160681_j72808285601940_2_alg».proof.Proof.Region0
import proofs.«160681_j72808285601940_2_alg».proof.Proof.Region1
import proofs.«160681_j72808285601940_2_alg».proof.Proof.RefRun
import proofs.«160681_j72808285601940_2_alg».proof.Proof.Bridge
import Idealize.ShloMosaic.Adequacy
import Idealize.ShloMosaic.Init

noncomputable section

namespace Cert.Proof

open Idealize.ShloMosaic Idealize.ShloMosaic.TcCoe Idealize.SL.Sem

/-- What the boundary walk asks of the two pallas_calls: each one's output array, and that the first leaves its input. -/
theorem regionFacts : Cert.KernelIdeal.Walk.RegionFacts :=
  ⟨Cert.KernelIdeal.Region0.arr_out, Cert.KernelIdeal.Region0.arr_in, Cert.KernelIdeal.Region1.arr_out⟩

/-- The kernel program's run with its result read: the result array ends holding `outK` of the five argument arrays as
    launched, and the arguments end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v32) = Cert.SE.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun r h c => ⟨(h c).1.trans (Cert.KernelIdeal.Walk.result m ρ regionFacts c), (h c).2⟩)
    (Cert.KernelIdeal.Res.run_res (F := Ideal) m ρ)

/-- If the reference's five arrays are the kernel's, the reference's result function of them is the kernel's. Stated over
    plain arrays, so that the two programs' buffers meet only through these ten variables. -/
theorem out_agree (x x' : FVec Ideal Cert.SE.X4 .f32) (w1 w1' : FVec Ideal Cert.KernelIdeal.S128x2048 .f32) (b1 b1' : FVec Ideal Cert.KernelIdeal.S2048 .f32)
    (w2 w2' : FVec Ideal Cert.KernelIdeal.S2048x128 .f32) (b2 b2' : FVec Ideal Cert.KernelIdeal.S128 .f32)
    (hx : x' = x) (hw1 : w1' = w1) (hb1 : b1' = b1) (hw2 : w2' = w2) (hb2 : b2' = b2) :
    Cert.SE.outR x' w1' b1' w2' b2' = Cert.SE.outK x w1 b1 w2 b2 := by
  subst hx hw1 hb1 hw2 hb2
  exact (Cert.SE.out_eq _ _ _ _ _).symm

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- From memories agreeing on the arguments both programs run; the kernel's result array ends at `outK` of its arguments,
    the reference's at `outR` of its own, which are the kernel's; and `outK = outR`. -/
theorem algebraic : Cert.algebraic_KernelIdeal_ReferenceIdeal := fun m ρ m' ρ' _ hagree =>
  ⟨fun c => Cert.SE.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), kernel_run m ρ,
    (θ_run (Cert.ReferenceIdeal.defs (F := Ideal)) _ _).mono (fun r h c => ⟨(h c).1.trans
        (out_agree _ _ _ _ _ _ _ _ _ _ (hagree c).1 (hagree c).2.1 (hagree c).2.2.1 (hagree c).2.2.2.1 (hagree c).2.2.2.2), (h c).2⟩)
      (Cert.ReferenceIdeal.RefValue.run m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
